-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x512 : Shape := ⟨2, ![256, 512]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S2048x256 .f32) (main_arg1 : FVec F S256x512 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S2048x256 : Shape := ⟨2, ![2048, 256]⟩
abbrev S256x512 : Shape := ⟨2, ![256, 512]⟩
abbrev S_ : Shape := ⟨0, ![]⟩
abbrev S2048x512 : Shape := ⟨2, ![2048, 512]⟩
abbrev S128x256 : Shape := ⟨2, ![128, 256]⟩
abbrev S128x512 : Shape := ⟨2, ![128, 512]⟩
abbrev S128x8 : Shape := ⟨2, ![128, 8]⟩
abbrev S8x512 : Shape := ⟨2, ![8, 512]⟩
abbrev S128x8x1 : Shape := ⟨3, ![128, 8, 1]⟩
abbrev S1x8x512 : Shape := ⟨3, ![1, 8, 512]⟩
abbrev S128x8x512 : Shape := ⟨3, ![128, 8, 512]⟩

abbrev nBuf : Space → Nat
  | .hbm => 11
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S2048x512, .f32⟩
  | .local _ .vmem, ⟨0, _⟩ => ⟨S128x256, .f32⟩
  | .local _ .vmem, ⟨1, _⟩ => ⟨S128x256, .f32⟩
  | .local _ .vmem, ⟨2, _⟩ => ⟨S256x512, .f32⟩
  | .local _ .vmem, ⟨3, _⟩ => ⟨S128x512, .f32⟩
  | .local _ .vmem, ⟨4, _⟩ => ⟨S128x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x512 : S_.BroadcastsInDim S256x512 (![] : Fin 0 → Fin S256x512.rank)
  inb_S128x256_S128x8_0_0 : ∀ a, (![0, 0] : Fin 2 → Nat) a + S128x8.size a ≤ S128x256.size a
  h_S128x8 : 0 < S128x8.numel
  inb_S256x512_S8x512_0_0 : ∀ a, (![0, 0] : Fin 2 → Nat) a + S8x512.size a ≤ S256x512.size a
  h_S8x512 : 0 < S8x512.numel
  shapeCasts_S8x512_S8x512 : S8x512.ShapeCasts S8x512
  shapeCasts_S128x8_S128x8x1 : S128x8.ShapeCasts S128x8x1
  shapeCasts_S8x512_S1x8x512 : S8x512.ShapeCasts S1x8x512
  broadcasts_S128x8x1_S128x8x512 : S128x8x1.Broadcasts S128x8x512
  broadcasts_S1x8x512_S128x8x512 : S1x8x512.Broadcasts S128x8x512
  reduces_S128x8x512_S128x512 : S128x8x512.Reduces [1] S128x512
  inb_S128x256_S128x8_0_8 : ∀ a, (![0, 8] : Fin 2 → Nat) a + S128x8.size a ≤ S128x256.size a
  inb_S256x512_S8x512_8_0 : ∀ a, (![8, 0] : Fin 2 → Nat) a + S8x512.size a ≤ S256x512.size a
  inb_S128x256_S128x8_0_16 : ∀ a, (![0, 16] : Fin 2 → Nat) a + S128x8.size a ≤ S128x256.size a
  inb_S256x512_S8x512_16_0 : ∀ a, (![16, 0] : Fin 2 → Nat) a + S8x512.size a ≤ S256x512.size a
  inb_S128x256_S128x8_0_24 : ∀ a, (![0, 24] : Fin 2 → Nat) a + S128x8.size a ≤ S128x256.size a
  inb_S256x512_S8x512_24_0 : ∀ a, (![24, 0] : Fin 2 → Nat) a + S8x512.size a ≤ S256x512.size a
  inb_S128x256_S128x8_0_32 : ∀ a, (![0, 32] : Fin 2 → Nat) a + S128x8.size a ≤ S128x256.size a
  inb_S256x512_S8x512_32_0 : ∀ a, (![32, 0] : Fin 2 → Nat) a + S8x512.size a ≤ S256x512.size a
  inb_S128x256_S128x8_0_40 : ∀ a, (![0, 40] : Fin 2 → Nat) a + S128x8.size a ≤ S128x256.size a
  inb_S256x512_S8x512_40_0 : ∀ a, (![40, 0] : Fin 2 → Nat) a + S8x512.size a ≤ S256x512.size a
  inb_S128x256_S128x8_0_48 : ∀ a, (![0, 48] : Fin 2 → Nat) a + S128x8.size a ≤ S128x256.size a
  inb_S256x512_S8x512_48_0 : ∀ a, (![48, 0] : Fin 2 → Nat) a + S8x512.size a ≤ S256x512.size a
  inb_S128x256_S128x8_0_56 : ∀ a, (![0, 56] : Fin 2 → Nat) a + S128x8.size a ≤ S128x256.size a
  inb_S256x512_S8x512_56_0 : ∀ a, (![56, 0] : Fin 2 → Nat) a + S8x512.size a ≤ S256x512.size a
  inb_S128x256_S128x8_0_64 : ∀ a, (![0, 64] : Fin 2 → Nat) a + S128x8.size a ≤ S128x256.size a
  inb_S256x512_S8x512_64_0 : ∀ a, (![64, 0] : Fin 2 → Nat) a + S8x512.size a ≤ S256x512.size a
  inb_S128x256_S128x8_0_72 : ∀ a, (![0, 72] : Fin 2 → Nat) a + S128x8.size a ≤ S128x256.size a
  inb_S256x512_S8x512_72_0 : ∀ a, (![72, 0] : Fin 2 → Nat) a + S8x512.size a ≤ S256x512.size a
  inb_S128x256_S128x8_0_80 : ∀ a, (![0, 80] : Fin 2 → Nat) a + S128x8.size a ≤ S128x256.size a
  inb_S256x512_S8x512_80_0 : ∀ a, (![80, 0] : Fin 2 → Nat) a + S8x512.size a ≤ S256x512.size a
  inb_S128x256_S128x8_0_88 : ∀ a, (![0, 88] : Fin 2 → Nat) a + S128x8.size a ≤ S128x256.size a
  inb_S256x512_S8x512_88_0 : ∀ a, (![88, 0] : Fin 2 → Nat) a + S8x512.size a ≤ S256x512.size a
  inb_S128x256_S128x8_0_96 : ∀ a, (![0, 96] : Fin 2 → Nat) a + S128x8.size a ≤ S128x256.size a
  inb_S256x512_S8x512_96_0 : ∀ a, (![96, 0] : Fin 2 → Nat) a + S8x512.size a ≤ S256x512.size a
  inb_S128x256_S128x8_0_104 : ∀ a, (![0, 104] : Fin 2 → Nat) a + S128x8.size a ≤ S128x256.size a
  inb_S256x512_S8x512_104_0 : ∀ a, (![104, 0] : Fin 2 → Nat) a + S8x512.size a ≤ S256x512.size a
  inb_S128x256_S128x8_0_112 : ∀ a, (![0, 112] : Fin 2 → Nat) a + S128x8.size a ≤ S128x256.size a
  inb_S256x512_S8x512_112_0 : ∀ a, (![112, 0] : Fin 2 → Nat) a + S8x512.size a ≤ S256x512.size a
  inb_S128x256_S128x8_0_120 : ∀ a, (![0, 120] : Fin 2 → Nat) a + S128x8.size a ≤ S128x256.size a
  inb_S256x512_S8x512_120_0 : ∀ a, (![120, 0] : Fin 2 → Nat) a + S8x512.size a ≤ S256x512.size a
  inb_S128x256_S128x8_0_128 : ∀ a, (![0, 128] : Fin 2 → Nat) a + S128x8.size a ≤ S128x256.size a
  inb_S256x512_S8x512_128_0 : ∀ a, (![128, 0] : Fin 2 → Nat) a + S8x512.size a ≤ S256x512.size a
  inb_S128x256_S128x8_0_136 : ∀ a, (![0, 136] : Fin 2 → Nat) a + S128x8.size a ≤ S128x256.size a
  inb_S256x512_S8x512_136_0 : ∀ a, (![136, 0] : Fin 2 → Nat) a + S8x512.size a ≤ S256x512.size a
  inb_S128x256_S128x8_0_144 : ∀ a, (![0, 144] : Fin 2 → Nat) a + S128x8.size a ≤ S128x256.size a
  inb_S256x512_S8x512_144_0 : ∀ a, (![144, 0] : Fin 2 → Nat) a + S8x512.size a ≤ S256x512.size a
  inb_S128x256_S128x8_0_152 : ∀ a, (![0, 152] : Fin 2 → Nat) a + S128x8.size a ≤ S128x256.size a
  inb_S256x512_S8x512_152_0 : ∀ a, (![152, 0] : Fin 2 → Nat) a + S8x512.size a ≤ S256x512.size a
  inb_S128x256_S128x8_0_160 : ∀ a, (![0, 160] : Fin 2 → Nat) a + S128x8.size a ≤ S128x256.size a
  inb_S256x512_S8x512_160_0 : ∀ a, (![160, 0] : Fin 2 → Nat) a + S8x512.size a ≤ S256x512.size a
  inb_S128x256_S128x8_0_168 : ∀ a, (![0, 168] : Fin 2 → Nat) a + S128x8.size a ≤ S128x256.size a
  inb_S256x512_S8x512_168_0 : ∀ a, (![168, 0] : Fin 2 → Nat) a + S8x512.size a ≤ S256x512.size a
  inb_S128x256_S128x8_0_176 : ∀ a, (![0, 176] : Fin 2 → Nat) a + S128x8.size a ≤ S128x256.size a
  inb_S256x512_S8x512_176_0 : ∀ a, (![176, 0] : Fin 2 → Nat) a + S8x512.size a ≤ S256x512.size a
  inb_S128x256_S128x8_0_184 : ∀ a, (![0, 184] : Fin 2 → Nat) a + S128x8.size a ≤ S128x256.size a
  inb_S256x512_S8x512_184_0 : ∀ a, (![184, 0] : Fin 2 → Nat) a + S8x512.size a ≤ S256x512.size a
  inb_S128x256_S128x8_0_192 : ∀ a, (![0, 192] : Fin 2 → Nat) a + S128x8.size a ≤ S128x256.size a
  inb_S256x512_S8x512_192_0 : ∀ a, (![192, 0] : Fin 2 → Nat) a + S8x512.size a ≤ S256x512.size a
  inb_S128x256_S128x8_0_200 : ∀ a, (![0, 200] : Fin 2 → Nat) a + S128x8.size a ≤ S128x256.size a
  inb_S256x512_S8x512_200_0 : ∀ a, (![200, 0] : Fin 2 → Nat) a + S8x512.size a ≤ S256x512.size a
  inb_S128x256_S128x8_0_208 : ∀ a, (![0, 208] : Fin 2 → Nat) a + S128x8.size a ≤ S128x256.size a
  inb_S256x512_S8x512_208_0 : ∀ a, (![208, 0] : Fin 2 → Nat) a + S8x512.size a ≤ S256x512.size a
  inb_S128x256_S128x8_0_216 : ∀ a, (![0, 216] : Fin 2 → Nat) a + S128x8.size a ≤ S128x256.size a
  inb_S256x512_S8x512_216_0 : ∀ a, (![216, 0] : Fin 2 → Nat) a + S8x512.size a ≤ S256x512.size a
  inb_S128x256_S128x8_0_224 : ∀ a, (![0, 224] : Fin 2 → Nat) a + S128x8.size a ≤ S128x256.size a
  inb_S256x512_S8x512_224_0 : ∀ a, (![224, 0] : Fin 2 → Nat) a + S8x512.size a ≤ S256x512.size a
  inb_S128x256_S128x8_0_232 : ∀ a, (![0, 232] : Fin 2 → Nat) a + S128x8.size a ≤ S128x256.size a
  inb_S256x512_S8x512_232_0 : ∀ a, (![232, 0] : Fin 2 → Nat) a + S8x512.size a ≤ S256x512.size a
  inb_S128x256_S128x8_0_240 : ∀ a, (![0, 240] : Fin 2 → Nat) a + S128x8.size a ≤ S128x256.size a
  inb_S256x512_S8x512_240_0 : ∀ a, (![240, 0] : Fin 2 → Nat) a + S8x512.size a ≤ S256x512.size a
  inb_S128x256_S128x8_0_248 : ∀ a, (![0, 248] : Fin 2 → Nat) a + S128x8.size a ≤ S128x256.size a
  inb_S256x512_S8x512_248_0 : ∀ a, (![248, 0] : Fin 2 → Nat) a + S8x512.size a ≤ S256x512.size a
  inb_S128x512_S128x512_0_0 : ∀ a, (![0, 0] : Fin 2 → Nat) a + S128x512.size a ≤ S128x512.size a
  h_S128x512 : 0 < S128x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S2048x256.size a
  hwx0_0 : ∀ i : grid0.Coords, EltTy.bits .f32 = 32 ∨ (Rect.block (s := S2048x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S2048x512.size a
  hwx0_2 : ∀ i : grid0.Coords, EltTy.bits .f32 = 32 ∨ (Rect.block (s := S2048x512) S128x512.size (cc0_transform_2 i) (hinb0_2 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x512 : Shape := ⟨2, ![256, 512]⟩
abbrev S_ : Shape := ⟨0, ![]⟩
abbrev S2048x256x1 : Shape := ⟨3, ![2048, 256, 1]⟩
abbrev S1x256x512 : Shape := ⟨3, ![1, 256, 512]⟩
abbrev S2048x256x512 : Shape := ⟨3, ![2048, 256, 512]⟩
abbrev S2048x512 : Shape := ⟨2, ![2048, 512]⟩

abbrev nBuf : Space → Nat
  | .hbm => 17
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S2048x256x1, .f32⟩
  | .hbm, ⟨11, _⟩ => ⟨S1x256x512, .f32⟩
  | .hbm, ⟨12, _⟩ => ⟨S2048x256x512, .f32⟩
  | .hbm, ⟨13, _⟩ => ⟨S2048x256x512, .f32⟩
  | .hbm, ⟨14, _⟩ => ⟨S2048x256x512, .f32⟩
  | .hbm, ⟨15, _⟩ => ⟨S_, .f32⟩
  | .hbm, ⟨16, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S2048x256_S2048x256x1_0_1 : S2048x256.BroadcastsInDim S2048x256x1 (![0, 1] : Fin 2 → Fin S2048x256x1.rank)
  bcast_S256x512_S1x256x512_1_2 : S256x512.BroadcastsInDim S1x256x512 (![1, 2] : Fin 2 → Fin S1x256x512.rank)
  bcast_S2048x256x1_S2048x256x512_0_1_2 : S2048x256x1.BroadcastsInDim S2048x256x512 (![0, 1, 2] : Fin 3 → Fin S2048x256x512.rank)
  bcast_S1x256x512_S2048x256x512_0_1_2 : S1x256x512.BroadcastsInDim S2048x256x512 (![0, 1, 2] : Fin 3 → Fin S2048x256x512.rank)
  reducesTo_S2048x256x512_S2048x512_d1 : S2048x256x512.ReducesTo [1] S2048x512
  h_S_ : 0 < S_.numel

variable [Facts₀]

class Facts : Prop extends Facts₀ where

variable [Facts]
-- ==== Proof.LibChunkedSup.lean ====
/-
  A supremum taken chunk by chunk.

  For a family `f : Fin n → α` in a linear order with a least element, `supBelow f a` is the supremum of the
  entries whose position is below `a`. It is `⊥` at `a = 0`, the supremum of the whole family once `a` reaches
  `n`, and going from `a` to `a + b` joins in the supremum of the next `b` entries (`supBelow_add`): the value an
  accumulator holds that starts at `⊥` and takes, chunk after chunk, the maximum of itself and the chunk's
  maximum. Also: a `Finset.fold` of `max` from `⊥` is the `Finset.sup` (`fold_max_bot_eq_sup`), the form in which
  a max-reduction over one axis is read.
-/
import Mathlib.Data.Finset.Lattice.Fold
import Mathlib.Data.Finset.Fold
import Mathlib.Data.Fintype.Basic
import Mathlib.Order.Fin.Basic

namespace ChunkedSup

variable {α : Type*} [LinearOrder α] [OrderBot α]

/-- The supremum of the entries of `f` at positions below `a`. -/
def supBelow {n : ℕ} (f : Fin n → α) (a : ℕ) : α :=
  (Finset.univ.filter fun j : Fin n => j.val < a).sup f

theorem supBelow_le_iff {n : ℕ} (f : Fin n → α) (a : ℕ) (c : α) :
    supBelow f a ≤ c ↔ ∀ j : Fin n, j.val < a → f j ≤ c := by
  unfold supBelow
  rw [Finset.sup_le_iff]
  exact ⟨fun h j hj => h j (Finset.mem_filter.2 ⟨Finset.mem_univ j, hj⟩),
    fun h j hj => h j (Finset.mem_filter.1 hj).2⟩

/-- No entry is below position `0`. -/
theorem supBelow_zero {n : ℕ} (f : Fin n → α) : supBelow f 0 = ⊥ :=
  le_antisymm ((supBelow_le_iff f 0 ⊥).2 fun j hj => absurd hj (Nat.not_lt_zero _)) bot_le

/-- Every entry is below position `n`. -/
theorem supBelow_all {n : ℕ} (f : Fin n → α) (a : ℕ) (h : n ≤ a) : supBelow f a = Finset.univ.sup f := by
  refine eq_of_forall_ge_iff fun c => ?_
  rw [supBelow_le_iff, Finset.sup_le_iff]
  exact ⟨fun hc j _ => hc j (lt_of_lt_of_le j.isLt h), fun hc j _ => hc j (Finset.mem_univ j)⟩

/-- The next `b` entries joined in: the supremum below `a + b` is the larger of the supremum below `a` and the
    supremum of the entries at `a`, `a + 1`, …, `a + b - 1`. -/
theorem supBelow_add {n : ℕ} (f : Fin n → α) (a b : ℕ) (h : a + b ≤ n) :
    supBelow f (a + b)
      = max (supBelow f a) (Finset.univ.sup fun k : Fin b => f ⟨a + k.val, by have := k.isLt; omega⟩) := by
  refine eq_of_forall_ge_iff fun c => ?_
  rw [max_le_iff, supBelow_le_iff, supBelow_le_iff, Finset.sup_le_iff]
  constructor
  · intro hc
    exact ⟨fun j hj => hc j (by omega), fun k _ => hc _ (by have := k.isLt; show a + k.val < a + b; omega)⟩
  · rintro ⟨h1, h2⟩ j hj
    by_cases hja : j.val < a
    · exact h1 j hja
    · have e : j = ⟨a + (⟨j.val - a, by omega⟩ : Fin b).val, by have := j.isLt; show a + (j.val - a) < n; omega⟩ :=
        Fin.ext (by show j.val = a + (j.val - a); omega)
      rw [e]
      exact h2 ⟨j.val - a, by omega⟩ (Finset.mem_univ _)

/-- A fold of `max` from the least element is the supremum. -/
theorem fold_max_bot_eq_sup {ι : Type*} (s : Finset ι) (f : ι → α) : s.fold max ⊥ f = s.sup f := by
  refine eq_of_forall_ge_iff fun c => ?_
  rw [Finset.fold_max_le, Finset.sup_le_iff]
  exact ⟨fun h => h.2, fun h => ⟨bot_le, h⟩⟩

end ChunkedSup
-- ==== Proof.ChunkMax.lean ====
/-
  One chunk of the max-times product, read at an entry.

  The body multiplies a [128, 8] slab of `x` (as [128, 8, 1], broadcast along the last axis) with an [8, 512] slab
  of `w` (as [1, 8, 512], broadcast along the first axis) and takes the maximum over the middle axis from `-∞`.
  At the extended reals its entry (p, q) is the supremum over the eight `k` of `P (p, k) * Q (k, q)`.
-/
import Idealize.ShloMosaic.PureOps.Ideal.Laws
import Idealize.ShloMosaic.Lib.ValueIdx
import Idealize.ShloMosaic.Lib.Pipeline.Value
import proofs.«172374_j12876311954034_2_alg».proof.Proof.LibChunkedSup

noncomputable section

namespace Tropical

open Idealize.ShloMosaic Idealize.ShloMosaic.ValueIdx

abbrev T128x8 : Shape := ⟨2, ![128, 8]⟩
abbrev T8x512 : Shape := ⟨2, ![8, 512]⟩
abbrev T128x8x1 : Shape := ⟨3, ![128, 8, 1]⟩
abbrev T1x8x512 : Shape := ⟨3, ![1, 8, 512]⟩
abbrev T128x8x512 : Shape := ⟨3, ![128, 8, 512]⟩
abbrev T128x512 : Shape := ⟨2, ![128, 512]⟩

/-- The f32 word of `-∞` is the least extended real. -/
theorem negInf_eq_bot : Ideal.ofBits .f32 0xFF800000#32 = (⊥ : EReal) := by simp [Ideal.ofBits, Ideal.ieee]

/-- The reduced index (p, q) with the middle coordinate `k` put back is (p, k, q). -/
theorem lift_mid (hr : T128x8x512.Reduces [1] T128x512) (p : Fin 128) (q : Fin 512) (k : Fin 8) :
    hr.lift (ix2 p q) k = ix3 p k q := by
  funext c; apply Fin.ext
  fin_cases c <;> rfl

/-- The [128, 8] slab as [128, 8, 1], broadcast to [128, 8, 512], at (p, k, q) is the slab at (p, k). -/
theorem slabX_apply (P : FVec Ideal T128x8 .f32) (h1 : T128x8.ShapeCasts T128x8x1)
    (b1 : T128x8x1.Broadcasts T128x8x512) (p : Fin 128) (k : Fin 8) (q : Fin 512) :
    broadcastTo T128x8x512 (shapeCast T128x8x1 P h1) b1 (ix3 p k q) = P (ix2 p k) := by
  rw [broadcastTo_apply _ b1 (ix3 p k q) (ix3 p k (0 : Fin 1)) (fun a => by fin_cases a <;> rfl)]
  exact shapeCast_apply P h1 _ (ix2 p k) (by
    rw [Shape.rowMajor_val_two, Shape.rowMajor_val_three]
    show p.val * 8 + k.val = (p.val * 8 + k.val) * 1 + 0
    omega)

/-- The [8, 512] slab (cast to itself, then) as [1, 8, 512], broadcast to [128, 8, 512], at (p, k, q) is the
    slab at (k, q). -/
theorem slabW_apply (Q : FVec Ideal T8x512 .f32) (h2 : T8x512.ShapeCasts T8x512) (h3 : T8x512.ShapeCasts T1x8x512)
    (b2 : T1x8x512.Broadcasts T128x8x512) (p : Fin 128) (k : Fin 8) (q : Fin 512) :
    broadcastTo T128x8x512 (shapeCast T1x8x512 (shapeCast T8x512 Q h2) h3) b2 (ix3 p k q) = Q (ix2 k q) := by
  rw [broadcastTo_apply _ b2 (ix3 p k q) (ix3 (0 : Fin 1) k q) (fun a => by fin_cases a <;> rfl), shapeCast_self]
  exact shapeCast_apply Q h3 _ (ix2 k q) (by
    rw [Shape.rowMajor_val_two, Shape.rowMajor_val_three]
    show k.val * 512 + q.val = (0 * 8 + k.val) * 512 + q.val
    omega)

/-- ONE CHUNK: the maximum over the middle axis, from `-∞`, of the product of the two broadcast slabs, at (p, q), is
    the supremum over `k` of `P (p, k) * Q (k, q)`. -/
theorem chunk_apply (P : FVec Ideal T128x8 .f32) (Q : FVec Ideal T8x512 .f32) (h1 : T128x8.ShapeCasts T128x8x1)
    (h2 : T8x512.ShapeCasts T8x512) (h3 : T8x512.ShapeCasts T1x8x512) (b1 : T128x8x1.Broadcasts T128x8x512)
    (b2 : T1x8x512.Broadcasts T128x8x512) (hr : T128x8x512.Reduces [1] T128x512) (hφ : FKind.Formats .f32)
    (hacc : (0xFF800000#32 : BitVec 32) = FKind.maximumf.neutral .f32 hφ) (p : Fin 128) (q : Fin 512) :
    multiReduction (F := Ideal) .maximumf [1] T128x512
        (mulf (broadcastTo T128x8x512 (shapeCast T128x8x1 P h1) b1)
          (broadcastTo T128x8x512 (shapeCast T1x8x512 (shapeCast T8x512 Q h2) h3) b2))
        0xFF800000#32 hr hφ hacc (ix2 p q)
      = Finset.univ.sup fun k : Fin 8 => P (ix2 p k) * Q (ix2 k q) := by
  rw [Ideal.multiReduction_maximumf_single]
  have hf : (mulf (broadcastTo T128x8x512 (shapeCast T128x8x1 P h1) b1)
        (broadcastTo T128x8x512 (shapeCast T1x8x512 (shapeCast T8x512 Q h2) h3) b2) ∘ hr.lift (ix2 p q))
      = fun k : Fin 8 => P (ix2 p k) * Q (ix2 k q) := funext fun k : Fin 8 => by
    show mulf _ _ (hr.lift (ix2 p q) k) = _
    rw [lift_mid hr p q k]
    exact congrArg₂ (· * ·) (slabX_apply P h1 b1 p k q) (slabW_apply Q h2 h3 b2 p k q)
  refine (congrArg (fun f => Finset.fold max (Ideal.ofBits .f32 0xFF800000#32) f (Finset.univ : Finset (Fin 8))) hf).trans ?_
  rw [negInf_eq_bot]
  exact ChunkedSup.fold_max_bot_eq_sup _ _

end Tropical

end
-- ==== Proof.Body.lean ====
/-
  What the kernel body leaves in its output block.

  The body starts an accumulator at `-∞` and, for each of the 32 chunks of eight columns of its [128, 256] block of
  `x` (the matching eight rows of `w`), replaces it by the maximum of itself and the chunk's maximum of products.
  After the chunk starting at column `a` the accumulator's entry (p, q) is the supremum of `x (p, j) * w (j, q)`
  over the columns `j` below `a + 8` (`chunk_step`); after the last chunk it is the supremum over all 256 columns
  (`body_apply`).
-/
import proofs.«172374_j12876311954034_2_alg».proof.Proof.Gen.KernelIdeal.Value
import proofs.«172374_j12876311954034_2_alg».proof.Proof.ChunkMax
import proofs.«172374_j12876311954034_2_alg».proof.Proof.LibChunkedSup

set_option maxRecDepth 16384

noncomputable section

namespace Tropical.Kernel

open Idealize.ShloMosaic Idealize.ShloMosaic.ValueIdx Cert.KernelIdeal Cert.KernelIdeal.Gen ChunkedSup

/-- Entry (p, q)'s products along the contracted axis: `j ↦ x (p, j) * w (j, q)`, for a block `x0` of `x` and the
    whole `w`. -/
def products (x0 : Vec Ideal S128x256 .f32) (x1 : Vec Ideal S256x512 .f32) (y : S128x512.Idx) : Fin 256 → EReal :=
  fun j => x0 (ix2 (y 0) j) * x1 (ix2 j (y 1))

/-- A load of the eight columns from `a` of the block of `x`, at (p, k), is the block at (p, a + k). -/
theorem ldX_apply (x0 : Vec Ideal S128x256 .f32) (a : ℕ) (ha : a + 8 ≤ 256)
    (inb : ∀ d, (![0, a] : Fin 2 → Nat) d + S128x8.size d ≤ S128x256.size d) (p : Fin 128) (k : Fin 8) :
    View.ld x0 (Rect.unit (s := S128x256) ![0, a] S128x8.size inb) (ix2 p k)
      = x0 (ix2 p ⟨a + k.val, by have := k.isLt; omega⟩) := by
  show x0 _ = x0 _
  refine congrArg x0 (funext fun d => Fin.ext ?_)
  match d with
  | ⟨0, _⟩ => show 0 + 1 * p.val = p.val; omega
  | ⟨1, _⟩ => show a + 1 * k.val = a + k.val; omega

/-- A load of the eight rows from `a` of `w`, at (k, q), is `w` at (a + k, q). -/
theorem ldW_apply (x1 : Vec Ideal S256x512 .f32) (a : ℕ) (ha : a + 8 ≤ 256)
    (inb : ∀ d, (![a, 0] : Fin 2 → Nat) d + S8x512.size d ≤ S256x512.size d) (k : Fin 8) (q : Fin 512) :
    View.ld x1 (Rect.unit (s := S256x512) ![a, 0] S8x512.size inb) (ix2 k q)
      = x1 (ix2 ⟨a + k.val, by have := k.isLt; omega⟩ q) := by
  show x1 _ = x1 _
  refine congrArg x1 (funext fun d => Fin.ext ?_)
  match d with
  | ⟨0, _⟩ => show a + 1 * k.val = a + k.val; omega
  | ⟨1, _⟩ => show 0 + 1 * q.val = q.val; omega

/-- ONE CHUNK OF THE ACCUMULATION: if the accumulator's entry is the supremum of the products below column `a`, then
    its maximum with the chunk of the eight columns from `a` is the supremum below `a + 8`. -/
theorem chunk_step (x0 : Vec Ideal S128x256 .f32) (x1 : Vec Ideal S256x512 .f32) (a : ℕ) (ha : a + 8 ≤ 256)
    (inb0 : ∀ d, (![0, a] : Fin 2 → Nat) d + S128x8.size d ≤ S128x256.size d)
    (inb1 : ∀ d, (![a, 0] : Fin 2 → Nat) d + S8x512.size d ≤ S256x512.size d)
    (y y' : S128x512.Idx) (hy : y' = y) (acc : Ideal .f32) (hacc : acc = supBelow (products x0 x1 y) a) :
    FloatOps.maximumf (F := Ideal) acc
        (multiReduction (F := Ideal) .maximumf [1] S128x512
          (mulf (broadcastTo S128x8x512 (shapeCast S128x8x1 (View.ld x0 (Rect.unit (s := S128x256) ![0, a] S128x8.size inb0))
              shapeCasts_S128x8_S128x8x1) broadcasts_S128x8x1_S128x8x512)
            (broadcastTo S128x8x512 (shapeCast S1x8x512 (shapeCast S8x512
              (View.ld x1 (Rect.unit (s := S256x512) ![a, 0] S8x512.size inb1)) shapeCasts_S8x512_S8x512)
              shapeCasts_S8x512_S1x8x512) broadcasts_S1x8x512_S128x8x512))
          0xFF800000#32 reduces_S128x8x512_S128x512 (.inl rfl) rfl y')
      = supBelow (products x0 x1 y) (a + 8) := by
  subst hy hacc
  rw [supBelow_add (products x0 x1 y') a 8 ha]
  show max _ _ = max _ _
  refine congrArg (max (supBelow (products x0 x1 y') a)) ?_
  have e := Tropical.chunk_apply (View.ld x0 (Rect.unit (s := S128x256) ![0, a] S128x8.size inb0))
    (View.ld x1 (Rect.unit (s := S256x512) ![a, 0] S8x512.size inb1)) shapeCasts_S128x8_S128x8x1
    shapeCasts_S8x512_S8x512 shapeCasts_S8x512_S1x8x512 broadcasts_S128x8x1_S128x8x512 broadcasts_S1x8x512_S128x8x512
    reduces_S128x8x512_S128x512 (.inl rfl) rfl (y' 0) (y' 1)
  refine ((congrArg _ (eq_ix2 y')).trans e).trans (Finset.sup_congr rfl fun k _ => ?_)
  exact congrArg₂ (· * ·) (ldX_apply x0 a ha inb0 (y' 0) k) (ldW_apply x1 a ha inb1 k (y' 1))

/-- THE BODY'S RESULT, at an entry of the output block: the supremum, over all 256 columns `j`, of the block of `x` at
    (p, j) times `w` at (j, q) — the accumulator from `-∞` after its 32 chunks. -/
theorem body_apply (x0 : Vec Ideal S128x256 .f32) (x1 : Vec Ideal S256x512 .f32) (y : S128x512.Idx) :
    out0_2 (F := Ideal) x0 x1 y = Finset.univ.sup (products x0 x1 y) := by
  unfold out0_2
  rw [Cert.KernelIdeal.Value.canon2_eq, ← supBelow_all (products x0 x1 y) 256 le_rfl]
  iterate 32
    refine chunk_step x0 x1 _ (by norm_num) _ _ y _
      (funext fun d => by match d with | ⟨0, _⟩ => rfl | ⟨1, _⟩ => rfl) _ ?_
  rw [supBelow_zero]
  exact Tropical.negInf_eq_bot

end Tropical.Kernel

end
-- ==== Proof.Spec.lean ====
/-
  The max-times ("tropical") product, index by index.

  For `x : [2048, 256]` and `w : [256, 512]` over the extended reals, entry (i, k) of the result is the supremum over
  the 256 `j` of `x (i, j) * w (j, k)`. Both programs end holding this array, with `w` the logistic function of the
  second argument as the host operations before the product compute it.
-/
import Idealize.ShloMosaic.PureOps.Ideal
import Idealize.ShloMosaic.Lib.ValueIdx
import Mathlib.Data.Finset.Lattice.Fold

noncomputable section

namespace Tropical

open Idealize.ShloMosaic Idealize.ShloMosaic.ValueIdx

abbrev T2048x256 : Shape := ⟨2, ![2048, 256]⟩
abbrev T256x512 : Shape := ⟨2, ![256, 512]⟩
abbrev T2048x512 : Shape := ⟨2, ![2048, 512]⟩

/-- Entry `o = (i, k)` of the max-times product: the supremum over `j` of `x (i, j) * w (j, k)`. -/
def maxTimes (x : T2048x256.Idx → EReal) (w : T256x512.Idx → EReal) : T2048x512.Idx → EReal :=
  fun o => Finset.univ.sup fun j : Fin 256 => x (ix2 (o 0) j) * w (ix2 j (o 1))

end Tropical

end
-- ==== Proof.Blocks.lean ====
/-
  From the blocks to the whole output array.

  The grid has 16 points. Point `t` reads rows 128·t … 128·t + 127 of `x` (all 256 columns), the whole of `w` — the
  logistic function of the second argument, which the host operations before the kernel leave in its array —, and
  writes rows 128·t … 128·t + 127 of the output (all 512 columns). What it writes is that block of the max-times
  product of `x` and `w` (`flushed_eq`); the 16 blocks cover the output (`cover`); so after the run the output array
  is the max-times product (`final`, `run`).
-/
import proofs.«172374_j12876311954034_2_alg».proof.Proof.Body
import proofs.«172374_j12876311954034_2_alg».proof.Proof.Spec
import Idealize.ShloMosaic.Lib.StableHlo.Run

set_option maxRecDepth 16384

noncomputable section

namespace Tropical.Kernel

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The logistic function `1 / (1 + exp (-A))` entry by entry, as the host operations before the kernel spell it. -/
def hostLogistic (A : S256x512.Idx → EReal) : S256x512.Idx → EReal :=
  Host.divf (F := Ideal) (φ := .f32) (broadcastInDim S256x512 ![] bcast_S_S256x512 (constant (F := Ideal) S_ .f32 0x3F800000#32))
    (addf (F := Ideal) (φ := .f32) (broadcastInDim S256x512 ![] bcast_S_S256x512 (constant (F := Ideal) S_ .f32 0x3F800000#32))
      (Host.exp (F := Ideal) (φ := .f32) (Host.negf (F := Ideal) (φ := .f32) A)))

/-- The array the kernel's second window stages holds, when the region is entered, the logistic function of the second
    argument. -/
theorem V_main_v5 (c : Dev nD) :
    (V m c main_v5 : S256x512.Idx → EReal) = hostLogistic (m ((c : Thread nD τ).loc main_arg1)) := by
  dsimp only [V, hostOps0]
  after_results
  rfl

/-- The printed index maps over the 16 grid points: the blocks of `x` and of the output are at row-block `t`, column-block
    0; `w`'s one block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A product of two entries read at equal indices. -/
theorem product_congr (X : S2048x256.Idx → EReal) (W : S256x512.Idx → EReal) (i0 i0' : S2048x256.Idx)
    (i1 i1' : S256x512.Idx) (h0 : i0 = i0') (h1 : i1 = i1') : X i0 * W i1 = X i0' * W i1' := by rw [h0, h1]

/-- WHAT POINT `t` WRITES BACK is block `t` of the max-times product of the arrays the region finds. -/
theorem flushed_eq (c : Dev nD) (t : Fin cfg0.N) :
    (dats m 0 c).flushed 2 t
      = ((cfg0.win 2).blk t).view.read (Elt Ideal) (maxTimes (V m c main_arg0) (V m c main_v5)) := by
  rw [Cert.KernelIdeal.Value.flushed2]
  obtain ⟨e0, e1, e2, e3, e4, e5⟩ := idx_facts t
  funext j
  show out0_2 (F := Ideal) (iblk m c 0 t) (iblk m c 1 t) j
    = maxTimes (V m c main_arg0) (V m c main_v5) (((cfg0.win 2).blk t).view.emb j)
  refine (body_apply (iblk m c 0 t) (iblk m c 1 t) j).trans ?_
  unfold maxTimes
  refine Finset.sup_congr rfl fun k _ => ?_
  have h0 : ((cfg0.win 0).blk t).view.emb (ix2 (j 0) k) = ix2 ((((cfg0.win 2).blk t).view.emb j) 0) k := by
    funext a; apply Fin.ext
    match a with
    | ⟨0, _⟩ =>
      show win0_0.index t (0 : Fin 2) * 128 + 1 * (j 0).val = win0_2.index t (0 : Fin 2) * 128 + 1 * (j 0).val
      omega
    | ⟨1, _⟩ =>
      show win0_0.index t (1 : Fin 2) * 256 + 1 * k.val = k.val
      omega
  have h1 : ((cfg0.win 1).blk t).view.emb (ix2 k (j 1)) = ix2 k ((((cfg0.win 2).blk t).view.emb j) 1) := by
    funext a; apply Fin.ext
    match a with
    | ⟨0, _⟩ =>
      show win0_1.index t (0 : Fin 2) * 256 + 1 * k.val = k.val
      omega
    | ⟨1, _⟩ =>
      show win0_1.index t (1 : Fin 2) * 512 + 1 * (j 1).val = win0_2.index t (1 : Fin 2) * 512 + 1 * (j 1).val
      omega
  exact product_congr (V m c main_arg0) (V m c main_v5) _ _ _ _ h0 h1

/-- An index of the output is in point `t`'s block iff each coordinate is in the block's range on its axis. -/
theorem mem_blk (t : Fin cfg0.N) (i : S2048x512.Idx) :
    i ∈ ((cfg0.win 2).blk t).view.set ↔ ∀ a : Fin 2, win0_2.index t a * S128x512.size a ≤ (i a).val
      ∧ (i a).val < win0_2.index t a * S128x512.size a + S128x512.size a := by
  show i ∈ ((View.whole main_v6).slice (win0_2.rect t)).set ↔ _
  rw [View.set_slice_whole, Rect.mem_set_unit]
  exact Iff.rfl

/-- Every entry of the output is in the block of the point its row falls to: row `r` is written by point `r / 128`. -/
theorem cover (i : S2048x512.Idx) :
    ∃ t : Fin cfg0.N, (cfg0.win 2).flush t = true ∧ i ∈ ((cfg0.win 2).blk t).view.set := by
  have hi0 : (i 0).val < 2048 := (i 0).isLt
  have hi1 : (i 1).val < 512 := (i 1).isLt
  have hN : cfg0.N = 16 := N_0
  have ht : (i 0).val / 128 < cfg0.N := by rw [hN]; omega
  obtain ⟨-, -, -, -, e4, e5⟩ := idx_facts ⟨(i 0).val / 128, ht⟩
  refine ⟨⟨(i 0).val / 128, ht⟩, flush0_2 _, ?_⟩
  rw [mem_blk]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    rw [e4]
    show (i 0).val / 128 * 128 ≤ (i 0).val ∧ (i 0).val < (i 0).val / 128 * 128 + 128
    omega
  | ⟨1, _⟩ =>
    show win0_2.index ⟨(i 0).val / 128, ht⟩ (1 : Fin 2) * 512 ≤ (i 1).val
      ∧ (i 1).val < win0_2.index ⟨(i 0).val / 128, ht⟩ (1 : Fin 2) * 512 + 512
    rw [e5]
    omega

/-- THE OUTPUT ARRAY after the run is the max-times product of the first argument and the logistic function of the
    second. -/
theorem final (c : Dev nD) :
    (dats m 0 c).arrAt 2 cfg0.N
      = maxTimes (m ((c : Thread nD τ).loc main_arg0)) (hostLogistic (m ((c : Thread nD τ).loc main_arg1))) := by
  rw [(dats m 0 c).arrAt_eq_of_cover 2 (maxTimes (V m c main_arg0) (V m c main_v5))
    (fun t _ => flushed_eq m c t) cover, V_main_arg0, V_main_v5]

/-- The kernel's run: every weakly fair execution ends with the result at the max-times product, the arguments
    unchanged. -/
theorem run : θ_run defs (onTc (τ := τ) (main (F := Ideal))) ⟨m, fun _ => 0, ρ⟩ fun r => ∀ c : Dev nD,
      r.2.mem ((c : Thread nD τ).loc main_v6)
        = maxTimes (m ((c : Thread nD τ).loc main_arg0)) (hostLogistic (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Tropical.Kernel

end
-- ==== Proof.RefSide.lean ====
/-
  The reference computes the max-times product.

  Its last operation reduces, with a maximum from `-∞`, the middle axis of the [2048, 256, 512] array whose entry
  (i, j, k) is `x (i, j) * w (j, k)` — `x` broadcast along the last axis, `w` (the logistic function of the second
  argument, the stage `val_main_v5`) along the first. Read at (i, k) that is the supremum over `j`.
-/
import proofs.«172374_j12876311954034_2_alg».proof.Proof.Gen.ReferenceIdeal.Read
import proofs.«172374_j12876311954034_2_alg».proof.Proof.LibChunkedSup
import proofs.«172374_j12876311954034_2_alg».proof.Proof.Spec
import Idealize.ShloMosaic.PureOps.Ideal.Laws
import Idealize.ShloMosaic.Lib.ValueIdx

noncomputable section

namespace Tropical.Reference

open Idealize.ShloMosaic Idealize.ShloMosaic.ValueIdx Cert.ReferenceIdeal Cert.ReferenceIdeal.Read

/-- The f32 word of `-∞` is the least extended real. -/
theorem negInf_eq_bot : Ideal.ofBits .f32 0xFF800000#32 = (⊥ : EReal) := by simp [Ideal.ofBits, Ideal.ieee]

/-- The product array at (i, j, k) is `x (i, j) * w (j, k)`. -/
theorem product_apply (x0 : (⟨S2048x256, .f32⟩ : BufTy).Contents (Elt Ideal))
    (x1 : (⟨S256x512, .f32⟩ : BufTy).Contents (Elt Ideal)) (i : Fin 2048) (j : Fin 256) (k : Fin 512) :
    val_main_v10 (F := Ideal) x0 x1 (ix3 i j k) = x0 (ix2 i j) * val_main_v5 (F := Ideal) x1 (ix2 j k) := by
  rw [val_main_v10_apply, val_main_v8_apply, val_main_v6_apply, val_main_v9_apply, val_main_v7_apply]
  have e0 : idx_main_v6 (idx_main_v8 (ix3 i j k)) = ix2 i j :=
    funext fun a => Fin.ext (by match a with | ⟨0, _⟩ => rfl | ⟨1, _⟩ => rfl)
  have e1 : idx_main_v7 (idx_main_v9 (ix3 i j k)) = ix2 j k :=
    funext fun a => Fin.ext (by match a with | ⟨0, _⟩ => rfl | ⟨1, _⟩ => rfl)
  rw [e0, e1]
  rfl

/-- The reduced index (i, k) with the middle coordinate `j` put back is (i, j, k). -/
theorem lift_mid (hr : S2048x256x512.Reduces [1] S2048x512) (o : S2048x512.Idx) (j : Fin 256) :
    hr.lift o j = ix3 (o 0) j (o 1) := by
  funext c; apply Fin.ext
  fin_cases c <;> rfl

/-- THE REFERENCE'S RESULT is the max-times product of the first argument and the logistic function of the second. -/
theorem result_eq (x0 : (⟨S2048x256, .f32⟩ : BufTy).Contents (Elt Ideal))
    (x1 : (⟨S256x512, .f32⟩ : BufTy).Contents (Elt Ideal)) :
    val_main_v11 (F := Ideal) x0 x1 = maxTimes x0 (val_main_v5 (F := Ideal) x1) := by
  funext o
  have hr : S2048x256x512.Reduces [1] S2048x512 := by decide
  unfold val_main_v11
  rw [Host.reduce_eq_fold_single FloatOps.maximumf _ _ _ hr]
  have hf : (val_main_v10 (F := Ideal) x0 x1 ∘ hr.lift o)
      = fun j : Fin 256 => x0 (ix2 (o 0) j) * val_main_v5 (F := Ideal) x1 (ix2 j (o 1)) := funext fun j : Fin 256 => by
    show val_main_v10 (F := Ideal) x0 x1 (hr.lift o j) = _
    rw [lift_mid hr o j]
    exact product_apply x0 x1 (o 0) j (o 1)
  refine (congrArg (fun f => Finset.fold max (Ideal.ofBits .f32 0xFF800000#32) f (Finset.univ : Finset (Fin 256))) hf).trans ?_
  rw [negInf_eq_bot]
  exact ChunkedSup.fold_max_bot_eq_sup _ _

end Tropical.Reference

end
-- ==== Proof.lean ====
/-
  The certificate of the max-times ("tropical") product kernel against its jnp reference, at the extended reals.

  Both programs first form `w = 1 / (1 + exp (-A))` entry by entry on the host, with the same operations. The
  reference then takes, for every (i, k), the maximum from `-∞` over `j` of `x (i, j) * w (j, k)`. The kernel computes
  the same array 128 rows at a time; within a block it goes through the 256 values of `j` in 32 chunks of eight, taking
  each chunk's maximum and folding it into an accumulator that starts at `-∞`. A supremum over 256 indices is the
  iterated maximum of the suprema of its 32 chunks — only the order-theoretic properties of `max` and its least element
  enter, never finiteness —, so both results are the one array `Tropical.maxTimes x w`.

  The frames of the two kernel programs and the reference's run are the generated ones; the ideal pass rewrote nothing,
  so the idealization claim is trivial.
-/
import proofs.«172374_j12876311954034_2_alg».proof.Defs
import proofs.«172374_j12876311954034_2_alg».proof.Proof.Gen.Kernel
import proofs.«172374_j12876311954034_2_alg».proof.Proof.Gen.Kernel.Skeleton
import proofs.«172374_j12876311954034_2_alg».proof.Proof.Gen.Kernel.Launch
import proofs.«172374_j12876311954034_2_alg».proof.Proof.Gen.Kernel.Points
import proofs.«172374_j12876311954034_2_alg».proof.Proof.Gen.Kernel.Frame
import proofs.«172374_j12876311954034_2_alg».proof.Proof.Gen.KernelIdeal
import proofs.«172374_j12876311954034_2_alg».proof.Proof.Gen.KernelIdeal.Skeleton
import proofs.«172374_j12876311954034_2_alg».proof.Proof.Gen.KernelIdeal.Launch
import proofs.«172374_j12876311954034_2_alg».proof.Proof.Gen.KernelIdeal.Points
import proofs.«172374_j12876311954034_2_alg».proof.Proof.Gen.KernelIdeal.Frame
import proofs.«172374_j12876311954034_2_alg».proof.Proof.Gen.ReferenceIdeal
import proofs.«172374_j12876311954034_2_alg».proof.Proof.Gen.Pre_finite_inputs
import proofs.«172374_j12876311954034_2_alg».proof.Proof.Gen.KernelIdeal.Value
import proofs.«172374_j12876311954034_2_alg».proof.Proof.Gen.ReferenceIdeal.Run
import proofs.«172374_j12876311954034_2_alg».proof.Proof.Gen.ReferenceIdeal.Read
import proofs.«172374_j12876311954034_2_alg».proof.Proof.Blocks
import proofs.«172374_j12876311954034_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The logistic function of the second argument is spelt with the same host operations in both programs. -/
theorem logistic_eq (A : Cert.ReferenceIdeal.S256x512.Idx → EReal) :
    Cert.ReferenceIdeal.Read.val_main_v5 (F := Ideal) A = Tropical.Kernel.hostLogistic A := rfl

/-- From memories agreeing on the arguments, the kernel's result (the blocks' max-times products, put together) and the
    reference's (one max-reduction) are the same array. -/
theorem algebraic : Cert.algebraic_KernelIdeal_ReferenceIdeal := by
  intro m ρ m' ρ' _ hagree
  refine ⟨_, Tropical.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Tropical.Reference.result_eq, (hagree c).1, (hagree c).2, logistic_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
